-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S8x512x512 : Shape := ⟨3, ![8, 512, 512]⟩
abbrev S256x256 : Shape := ⟨2, ![256, 256]⟩
abbrev S256 : Shape := ⟨1, ![256]⟩
abbrev S512x512x256 : Shape := ⟨3, ![512, 512, 256]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x512x256 : S_.BroadcastsInDim S512x512x256 (![] : Fin 0 → Fin S512x512x256.rank)
  reducesTo_S512x512x256_S_d0_1_2 : S512x512x256.ReducesTo [0, 1, 2] S_

variable [Facts]

def fn_part1 {F : FTy → Type} [FloatOps F] (main_arg4 : FVec F S512x512x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x512x256 .f32 := Host.absf main_arg4
  let main_cst_6 : FVec F S_ .f32 := constant S_ .f32 0x7F800000#32
  let main_v20 : FVec F S512x512x256 .f32 := broadcastInDim S512x512x256 ![] bcast_S_S512x512x256 main_cst_6
  let main_v21 : IVec S512x512x256 1 := cmpf .olt main_v19 main_v20
  let main_c_7 : IVec S_ 1 := constantI S_ 1 1#1
  let main_v22 : IVec S_ 1 := (fun x v => Host.reduce IntOp.andi x v reducesTo_S512x512x256_S_d0_1_2 h_S_) main_v21 main_c_7
  let main_v23 : IVec S_ 1 := andi main_v18 main_v22
  main_v23

def fn {F : FTy → Type} [FloatOps F] (main_arg0 : FVec F S8x512x256 .f32) (main_arg1 : FVec F S8x512x512 .f32) (main_arg2 : FVec F S256x256 .f32) (main_arg3 : FVec F S256 .f32) (main_arg4 : FVec F S512x512x256 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x512x256 : Shape := ⟨3, ![8, 512, 256]⟩
abbrev S8x512x512 : Shape := ⟨3, ![8, 512, 512]⟩
abbrev S256x256 : Shape := ⟨2, ![256, 256]⟩
abbrev S256 : Shape := ⟨1, ![256]⟩
abbrev S512x512x256 : Shape := ⟨3, ![512, 512, 256]⟩
abbrev S512x256 : Shape := ⟨2, ![512, 256]⟩
abbrev S32x512x256 : Shape := ⟨3, ![32, 512, 256]⟩
abbrev S32x256 : Shape := ⟨2, ![32, 256]⟩
abbrev S1x256 : Shape := ⟨2, ![1, 256]⟩
abbrev S1x512x256 : Shape := ⟨3, ![1, 512, 256]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8x512x256, .f32⟩
  | .hbm, ⟨1, _⟩ => ⟨S8x512x512, .f32⟩
  | .hbm, ⟨2, _⟩ => ⟨S256x256, .f32⟩
  | .hbm, ⟨3, _⟩ => ⟨S256, .f32⟩
  | .hbm, ⟨4, _⟩ => ⟨S512x512x256, .f32⟩
  | .hbm, ⟨5, _⟩ => ⟨S512x256, .f32⟩
  | .hbm, ⟨6, _⟩ => ⟨S1x256, .f32⟩
  | .hbm, ⟨7, _⟩ => ⟨S8x512x256, .f32⟩
  | .local _ .vmem, ⟨0, _⟩ => ⟨S32x512x256, .f32⟩
  | .local _ .vmem, ⟨1, _⟩ => ⟨S32x512x256, .f32⟩
  | .local _ .vmem, ⟨2, _⟩ => ⟨S32x256, .f32⟩
  | .local _ .vmem, ⟨3, _⟩ => ⟨S32x256, .f32⟩
  | .local _ .vmem, ⟨4, _⟩ => ⟨S1x512x256, .f32⟩
  | .local _ .vmem, ⟨5, _⟩ => ⟨S1x512x256, .f32⟩
  | .local _ .vmem, ⟨6, _⟩ => ⟨S1x512x512, .f32⟩
  | .local _ .vmem, ⟨7, _⟩ => ⟨S1x512x512, .f32⟩
  | .local _ .vmem, ⟨8, _⟩ => ⟨S256x256, .f32⟩
  | .local _ .vmem, ⟨9, _⟩ => ⟨S512x256, .f32⟩
  | .local _ .vmem, ⟨10, _⟩ => ⟨S1x256, .f32⟩
  | .local _ .vmem, ⟨11, _⟩ => ⟨S1x512x256, .f32⟩
  | .local _ .vmem, ⟨12, _⟩ => ⟨S1x512x256, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S32x512x256_S32x512x256_0_0_0 : ∀ a, (![0, 0, 0] : Fin 3 → Nat) a + S32x512x256.size a ≤ S32x512x256.size a
  h_S32x512x256 : 0 < S32x512x256.numel
  reduces_S32x512x256_S32x256 : S32x512x256.Reduces [1] S32x256
  inb_S32x256_S32x256_0_0 : ∀ a, (![0, 0] : Fin 2 → Nat) a + S32x256.size a ≤ S32x256.size a
  h_S32x256 : 0 < S32x256.numel
  shapeCasts_S256_S1x256 : S256.ShapeCasts S1x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x256_S1x512x256 : S512x256.ShapeCasts S1x512x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x256.size a ≤ S512x512x256.size a
  hwx0_0 : ∀ i : grid0.Coords, EltTy.bits .f32 = 32 ∨ (Rect.block (s := S512x512x256) S32x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S512x256.size a
  hwx0_1 : ∀ i : grid0.Coords, EltTy.bits .f32 = 32 ∨ (Rect.block (s := S512x256) S32x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x512x256.size a
  hwx1_0 : ∀ i : grid1.Coords, EltTy.bits .f32 = 32 ∨ (Rect.block (s := S8x512x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x512x512.size a
  hwx1_1 : ∀ i : grid1.Coords, EltTy.bits .f32 = 32 ∨ (Rect.block (s := S8x512x512) S1x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x256.size a ≤ S8x512x256.size a
  hwx1_5 : ∀ i : grid1.Coords, EltTy.bits .f32 = 32 ∨ (Rect.block (s := S8x512x256) S1x512x256.size (cc1_transform_5 i) (hinb1_5 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg4) S32x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x512x256 : Shape := ⟨3, ![8, 512, 256]⟩
abbrev S8x512x512 : Shape := ⟨3, ![8, 512, 512]⟩
abbrev S256x256 : Shape := ⟨2, ![256, 256]⟩
abbrev S256 : Shape := ⟨1, ![256]⟩
abbrev S512x512x256 : Shape := ⟨3, ![512, 512, 256]⟩
abbrev S_ : Shape := ⟨0, ![]⟩
abbrev S8x512 : Shape := ⟨2, ![8, 512]⟩
abbrev S8x512x1 : Shape := ⟨3, ![8, 512, 1]⟩
abbrev S512x256 : Shape := ⟨2, ![512, 256]⟩
abbrev S1x512x256 : Shape := ⟨3, ![1, 512, 256]⟩
abbrev S1x1x256 : Shape := ⟨3, ![1, 1, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x512x512, .f32⟩
  | .hbm, ⟨2, _⟩ => ⟨S256x256, .f32⟩
  | .hbm, ⟨3, _⟩ => ⟨S256, .f32⟩
  | .hbm, ⟨4, _⟩ => ⟨S512x512x256, .f32⟩
  | .hbm, ⟨5, _⟩ => ⟨S8x512x256, .f32⟩
  | .hbm, ⟨6, _⟩ => ⟨S_, .f32⟩
  | .hbm, ⟨7, _⟩ => ⟨S8x512, .f32⟩
  | .hbm, ⟨8, _⟩ => ⟨S8x512x1, .f32⟩
  | .hbm, ⟨9, _⟩ => ⟨S_, .f32⟩
  | .hbm, ⟨10, _⟩ => ⟨S8x512x1, .f32⟩
  | .hbm, ⟨11, _⟩ => ⟨S8x512x1, .f32⟩
  | .hbm, ⟨12, _⟩ => ⟨S_, .f32⟩
  | .hbm, ⟨13, _⟩ => ⟨S8x512x1, .f32⟩
  | .hbm, ⟨14, _⟩ => ⟨S8x512x1, .f32⟩
  | .hbm, ⟨15, _⟩ => ⟨S8x512x256, .f32⟩
  | .hbm, ⟨16, _⟩ => ⟨S8x512x256, .f32⟩
  | .hbm, ⟨17, _⟩ => ⟨S_, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S1x512x256, .f32⟩
  | .hbm, ⟨23, _⟩ => ⟨S8x512x256, .f32⟩
  | .hbm, ⟨24, _⟩ => ⟨S8x512x256, .f32⟩
  | .hbm, ⟨25, _⟩ => ⟨S8x512x256, .f32⟩
  | .hbm, ⟨26, _⟩ => ⟨S8x512x256, .f32⟩
  | .hbm, ⟨27, _⟩ => ⟨S1x1x256, .f32⟩
  | .hbm, ⟨28, _⟩ => ⟨S8x512x256, .f32⟩
  | .hbm, ⟨29, _⟩ => ⟨S8x512x256, .f32⟩
  | .hbm, ⟨30, _⟩ => ⟨S_, .f32⟩
  | .hbm, ⟨31, _⟩ => ⟨S8x512x256, .f32⟩
  | .hbm, ⟨32, _⟩ => ⟨S8x512x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S8x512x512_S8x512_d2 : S8x512x512.ReducesTo [2] S8x512
  h_S_ : 0 < S_.numel
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  bcast_S8x512x1_S8x512x256_0_1_2 : S8x512x1.BroadcastsInDim S8x512x256 (![0, 1, 2] : Fin 3 → Fin S8x512x256.rank)
  reducesTo_S512x512x256_S512x256_d1 : S512x512x256.ReducesTo [1] S512x256
  bcast_S_S512x256 : S_.BroadcastsInDim S512x256 (![] : Fin 0 → Fin S512x256.rank)
  bcast_S512x256_S1x512x256_1_2 : S512x256.BroadcastsInDim S1x512x256 (![1, 2] : Fin 2 → Fin S1x512x256.rank)
  bcast_S1x512x256_S8x512x256_0_1_2 : S1x512x256.BroadcastsInDim S8x512x256 (![0, 1, 2] : Fin 3 → Fin S8x512x256.rank)
  bcast_S256_S1x1x256_2 : S256.BroadcastsInDim S1x1x256 (![2] : Fin 1 → Fin S1x1x256.rank)
  bcast_S1x1x256_S8x512x256_0_1_2 : S1x1x256.BroadcastsInDim S8x512x256 (![0, 1, 2] : Fin 3 → Fin S8x512x256.rank)
  bcast_S_S8x512x256 : S_.BroadcastsInDim S8x512x256 (![] : Fin 0 → Fin S8x512x256.rank)
  dot_S8x512x256_S256x256_S8x512x256_2_0_01_1_n_n_wf : DotDims.WF S8x512x256 S256x256 S8x512x256 [2] [0] [0, 1] [1] [] []

variable [Facts₀]

def dot_S8x512x256_S256x256_S8x512x256_2_0_01_1_n_n : DotDims S8x512x256 S256x256 S8x512x256 where
  lhsContracting := [2]
  rhsContracting := [0]
  lhsNonContracting := [0, 1]
  rhsNonContracting := [1]
  lhsBatch := []
  rhsBatch := []
  wf := dot_S8x512x256_S256x256_S8x512x256_2_0_01_1_n_n_wf

class Facts : Prop extends Facts₀ where

variable [Facts]
-- ==== Proof.LayerSpec.lean ====
/-
  The dense graph-convolution layer, stated once, element by element, on the extended reals.

  For a batch b, a node n and an output feature o, with N = 512 nodes:
    rowSum b n    = Σ_j adj[b, n, j]                      the node's adjacency row added up
    hidden b n o  = Σ_k x[b, n, k] · w[k, o]              the node's features through the weight matrix
    relMean n o   = (Σ_j rel[n, j, o]) · 2⁻⁹              the mean over j of the relative-position table
    out b n o     = max (((rowSum · 2⁻⁹) · hidden + relMean) / (rowSum + 1) + bias[o]) 0

  One program multiplies by the binary32 word of 2⁻⁹ where the other divides by the word of 512. Both words are exact
  (512 = 2⁹), and on EVERY extended real, the infinities included, dividing by the real 512 is multiplying by 1/512
  (`mean_eq`): the one law that joins the two sides. Nothing here needs an entry to be finite: no factor is moved
  across a sum and nothing is cancelled.
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- The word of 2⁻⁹ = 1/512, the reciprocal of the node count. -/
abbrev invN : EReal := Ideal.ofBits .f32 0x3B000000#32
/-- The word of 1. -/
abbrev oneW : EReal := Ideal.ofBits .f32 0x3F800000#32
/-- The word of 0. -/
abbrev zeroW : EReal := Ideal.ofBits .f32 0x00000000#32

/-- The mean over j of the relative-position table at node `n`, feature `o`: the sum times 2⁻⁹. -/
def relMeanAt (rel : (⟨3, ![512, 512, 256]⟩ : Shape).Idx → EReal) (n : Fin 512) (o : Fin 256) : EReal :=
  (∑ j : Fin 512, rel (ix3 n j o)) * invN

/-- The same as an array over (node, feature). -/
def relMean (rel : (⟨3, ![512, 512, 256]⟩ : Shape).Idx → EReal) : (⟨2, ![512, 256]⟩ : Shape).Idx → EReal :=
  fun i => relMeanAt rel (i 0) (i 1)

/-- The adjacency row of node `n` in batch `b`, added up. -/
def rowSum (adj : (⟨3, ![8, 512, 512]⟩ : Shape).Idx → EReal) (b : Fin 8) (n : Fin 512) : EReal :=
  ∑ j : Fin 512, adj (ix3 b n j)

/-- Node `n` of batch `b` through the weight matrix, at output feature `o`. -/
def hidden (x : (⟨3, ![8, 512, 256]⟩ : Shape).Idx → EReal) (w : (⟨2, ![256, 256]⟩ : Shape).Idx → EReal)
    (b : Fin 8) (n : Fin 512) (o : Fin 256) : EReal :=
  ∑ k : Fin 256, x (ix3 b n k) * w (ix2 k o)

/-- One output element from its row sum, its hidden value, its relative-position mean and its bias. -/
def node (rs hid rm bo : EReal) : EReal :=
  max (Ideal.div (rs * invN * hid + rm) (rs + oneW) + bo) zeroW

/-- The bias vector laid out as a one-row matrix. -/
def biasRow (v : (⟨1, ![256]⟩ : Shape).Idx → EReal) : (⟨2, ![1, 256]⟩ : Shape).Idx → EReal :=
  fun i => v (ix1 (i 1))

/-- The layer at (b, n, o), from the features, the adjacency, the weights, a (node, feature) table and a bias row. -/
def layerAt (x : (⟨3, ![8, 512, 256]⟩ : Shape).Idx → EReal) (adj : (⟨3, ![8, 512, 512]⟩ : Shape).Idx → EReal)
    (w : (⟨2, ![256, 256]⟩ : Shape).Idx → EReal) (rm : (⟨2, ![512, 256]⟩ : Shape).Idx → EReal)
    (bias : (⟨2, ![1, 256]⟩ : Shape).Idx → EReal) (b : Fin 8) (n : Fin 512) (o : Fin 256) : EReal :=
  node (rowSum adj b n) (hidden x w b n o) (rm (ix2 n o)) (bias (ix2 0 o))

/-- The layer as an array over (batch, node, feature). -/
def layer (x : (⟨3, ![8, 512, 256]⟩ : Shape).Idx → EReal) (adj : (⟨3, ![8, 512, 512]⟩ : Shape).Idx → EReal)
    (w : (⟨2, ![256, 256]⟩ : Shape).Idx → EReal) (rm : (⟨2, ![512, 256]⟩ : Shape).Idx → EReal)
    (bias : (⟨2, ![1, 256]⟩ : Shape).Idx → EReal) : (⟨3, ![8, 512, 256]⟩ : Shape).Idx → EReal :=
  fun i => layerAt x adj w rm bias (i 0) (i 1) (i 2)

/-- The whole computation from the five inputs. -/
def result (x : (⟨3, ![8, 512, 256]⟩ : Shape).Idx → EReal) (adj : (⟨3, ![8, 512, 512]⟩ : Shape).Idx → EReal)
    (w : (⟨2, ![256, 256]⟩ : Shape).Idx → EReal) (bias : (⟨1, ![256]⟩ : Shape).Idx → EReal)
    (rel : (⟨3, ![512, 512, 256]⟩ : Shape).Idx → EReal) : (⟨3, ![8, 512, 256]⟩ : Shape).Idx → EReal :=
  layer x adj w (relMean rel) (biasRow bias)

/-- The word 0x44000000 is the real 512 = 2⁹. -/
theorem ofBits_512 : Ideal.ofBits .f32 0x44000000#32 = ((512 : ℝ) : EReal) := by
  simp [Ideal.ofBits, Ideal.ieee, -EReal.coe_mul]; norm_num

/-- The word 0x3B000000 is the real 1/512 = 2⁻⁹. -/
theorem ofBits_inv512 : Ideal.ofBits .f32 0x3B000000#32 = ((1 / 512 : ℝ) : EReal) := by
  simp [Ideal.ofBits, Ideal.ieee, -EReal.coe_mul]; norm_num

/-- A sum started from the zero word and divided by the word of 512 is the sum times the word of 2⁻⁹, whatever extended
    real the sum is. -/
theorem mean_eq (s : EReal) :
    Ideal.div (Ideal.ofBits .f32 0x00000000#32 + s) (Ideal.ofBits .f32 0x44000000#32) = s * invN := by
  show Ideal.div (Ideal.ofBits .f32 0x00000000#32 + s) (Ideal.ofBits .f32 0x44000000#32)
    = s * Ideal.ofBits .f32 0x3B000000#32
  rw [Ideal.ofBits_zero_f32, zero_add, ofBits_512, ofBits_inv512]
  exact Ideal.div_coe (by norm_num) s

end Cert.GraphLayer

end
-- ==== Proof.ReferenceLayer.lean ====
/-
  The reference program, read one operation at a time, computes the dense graph-convolution layer of LayerSpec
  element by element: at (b, n, o) it forms the adjacency row sum, divides it by 512, multiplies by the hidden
  value Σ_k x[b,n,k]·w[k,o], adds the mean over j of rel[n,j,o], divides by the row sum plus one, adds the bias and
  clamps at zero. Dividing a sum started from the zero word by the word of 512 is multiplying it by the word of 2⁻⁹
  (mean_eq), which is the only law used.
-/
import proofs.«148538_j50689204027734_1_alg».proof.Proof.Gen.ReferenceIdeal.Read
import proofs.«148538_j50689204027734_1_alg».proof.Proof.LayerSpec
import Idealize.ShloMosaic.Lib.ValueIdx
import Idealize.ShloMosaic.PureOps.Ideal.Laws

noncomputable section

namespace Cert.ReferenceIdeal.RefLayer

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

theorem reference_eq (x0 : (⟨S8x512x256, .f32⟩ : BufTy).Contents (Elt Ideal))
    (x1 : (⟨S8x512x512, .f32⟩ : BufTy).Contents (Elt Ideal)) (x2 : (⟨S256x256, .f32⟩ : BufTy).Contents (Elt Ideal))
    (x3 : (⟨S256, .f32⟩ : BufTy).Contents (Elt Ideal)) (x4 : (⟨S512x512x256, .f32⟩ : BufTy).Contents (Elt Ideal)) :
    Cert.ReferenceIdeal.Read.val_main_v20 (F := Ideal) x0 x1 x2 x3 x4 = Cert.GraphLayer.result x0 x1 x2 x3 x4 := by
  funext i
  obtain ⟨b, n, o, rfl⟩ : ∃ (b : Fin 8) (n : Fin 512) (o : Fin 256), i = ValueIdx.ix3 b n o :=
    ⟨i 0, i 1, i 2, ValueIdx.eq_ix3 i⟩
  rw [val_main_v20_apply, val_main_v19_apply, val_main_v16_apply, val_main_v14_apply, val_main_v8_apply,
    val_main_v7_apply, val_main_v6_apply, val_main_v15_apply, val_main_v4_apply, val_main_v2_apply,
    val_main_v1_apply, val_main_v5_apply,
    val_main_cst_1_apply, val_main_v0_apply, val_main_v13_apply, val_main_v12_apply, val_main_v11_apply,
    val_main_v9_apply, val_main_v10_apply, val_main_cst_3_apply,
    val_main_v3_apply, val_main_cst_0_apply, val_main_v18_apply, val_main_v17_apply, val_main_call0_v0_apply,
    val_main_call0_cst_apply, val_main_cst_apply, val_main_cst_2_apply]
  -- the composed index functions of the layout operations, at (b, n, o)
  have eAdj : ∀ k : Fin 512, idx_main_v1 (idx_main_v2 (idx_main_v7 (ix3 b n o))) k = ix3 b n k := fun k =>
    funext fun a => Fin.ext (by match a with | ⟨0, _⟩ => rfl | ⟨1, _⟩ => rfl | ⟨2, _⟩ => rfl)
  have eAdj' : ∀ k : Fin 512, idx_main_v1 (idx_main_v2 (idx_main_v15 (ix3 b n o))) k = ix3 b n k := fun k =>
    funext fun a => Fin.ext (by match a with | ⟨0, _⟩ => rfl | ⟨1, _⟩ => rfl | ⟨2, _⟩ => rfl)
  have eX : ∀ k : Fin 256, lidx_main_v0 (ix3 b n o) k = ix3 b n k := fun k =>
    funext fun a => Fin.ext (by match a with | ⟨0, _⟩ => rfl | ⟨1, _⟩ => rfl | ⟨2, _⟩ => rfl)
  have eW : ∀ k : Fin 256, ridx_main_v0 (ix3 b n o) k = ix2 k o := fun k =>
    funext fun a => Fin.ext (by match a with | ⟨0, _⟩ => rfl | ⟨1, _⟩ => rfl)
  have eRel : ∀ k : Fin 512, idx_main_v9 (idx_main_v12 (idx_main_v13 (ix3 b n o))) k = ix3 n k o := fun k =>
    funext fun a => Fin.ext (by match a with | ⟨0, _⟩ => rfl | ⟨1, _⟩ => rfl | ⟨2, _⟩ => rfl)
  have eB : idx_main_v17 (idx_main_v18 (ix3 b n o)) = ix1 o :=
    funext fun a => Fin.ext (by match a with | ⟨0, _⟩ => rfl)
  simp only [eAdj, eAdj', eX, eW, eRel, eB, Ideal.maximumf_def, Ideal.addf_def, Ideal.mulf_def, Ideal.hostDivf_def,
    Ideal.ofBits_def]
  rw [Cert.GraphLayer.mean_eq, Cert.GraphLayer.mean_eq,
    show Ideal.ofBits .f32 0x00000000#32 + ∑ k : Fin 512, x1 (ix3 b n k) = ∑ k : Fin 512, x1 (ix3 b n k) from by
      rw [Ideal.ofBits_zero_f32, zero_add]]
  rfl

end Cert.ReferenceIdeal.RefLayer

end
-- ==== Proof.KernelFold.lean ====
/-
  What the second region finds when it is entered, array by array, read back through the program's segments.

  The program is three segments: the first region (the relative-position mean), one host operation (the bias vector
  reshaped to a one-row matrix), the second region (the layer). The second region reads five arrays. Three of them —
  the features, the adjacency and the weights — are arguments that nothing before it writes, so it finds them as
  launched. The fourth is the first region's output array, which the reshape does not touch: it holds what the first
  region's write-backs left. The fifth is the reshape's result: the bias vector in row-major order, one row.
  The program's result array is the second region's output array, which nothing after it writes.
-/
import proofs.«148538_j50689204027734_1_alg».proof.Proof.Gen.KernelIdeal.Frame
import Idealize.ShloMosaic.Lib.StableHlo.Run

noncomputable section

namespace Cert.KernelIdeal.Fold

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The reshape writes only its own result, so any other buffer is after it what it was before it. -/
theorem reshape_keeps (c : Dev nD) (r : Ref sig .tc) (h : r ≠ main_v1) :
    W2 m ρ c (Proc.devRef .tc r) = W1 m ρ c (Proc.devRef .tc r) :=
  StableHlo.after_of_forall_not_mem (b := Proc.devRef .tc r) _ _ (List.forall_iff_forall_mem.mp (by
    simp only [hostOps1, List.Forall, StableHlo.reshape_writes, Finset.mem_singleton]
    exact StableHlo.devRef_ne_of_ne h))

/-- The features as the second region finds them: as launched. -/
theorem entry_features (c : Dev nD) : V2 m ρ c main_arg0 = m ((c : Thread nD τ).loc main_arg0) :=
  (reshape_keeps m ρ c main_arg0 (by decide)).trans (W1_of_ne m ρ c main_arg0 (by decide))

/-- The adjacency as the second region finds it: as launched. -/
theorem entry_adjacency (c : Dev nD) : V2 m ρ c main_arg1 = m ((c : Thread nD τ).loc main_arg1) :=
  (reshape_keeps m ρ c main_arg1 (by decide)).trans (W1_of_ne m ρ c main_arg1 (by decide))

/-- The weights as the second region finds them: as launched. -/
theorem entry_weights (c : Dev nD) : V2 m ρ c main_arg2 = m ((c : Thread nD τ).loc main_arg2) :=
  (reshape_keeps m ρ c main_arg2 (by decide)).trans (W1_of_ne m ρ c main_arg2 (by decide))

/-- The first region's output array as the second region finds it: what the first region's write-backs left. -/
theorem entry_relMean (c : Dev nD) : V2 m ρ c main_v0 = (dat0 (V0 m ρ) c).arrAt 1 cfg0.N :=
  (reshape_keeps m ρ c main_v0 (by decide)).trans (W1_arr m ρ c 1)

/-- The bias row as the second region finds it: the launched bias vector, reshaped. -/
theorem entry_biasRow (c : Dev nD) :
    V2 m ρ c main_v1 = fun i => shapeCast S1x256 (m ((c : Thread nD τ).loc main_arg3)) shapeCasts_S256_S1x256 i := by
  show StableHlo.after hostOps1 (W1 m ρ c) (Proc.devRef .tc main_v1) = _
  simp only [hostOps1, StableHlo.after_cons, StableHlo.after_nil]
  rw [StableHlo.reshape_result, W1_of_ne m ρ c main_arg3 (by decide)]
  rfl

/-- The first region reads the relative-position table as launched. -/
theorem entry_relPos (c : Dev nD) : V0 m ρ c main_arg4 = m ((c : Thread nD τ).loc main_arg4) := rfl

/-- The program's result array at the end is the second region's output array after its last point. -/
theorem result_array (c : Dev nD) : W3 m ρ c (Proc.devRef .tc main_v2) = (dat1 (V2 m ρ) c).arrAt 5 cfg1.N :=
  W3_arr m ρ c 5

end Cert.KernelIdeal.Fold

end
-- ==== Proof.KernelRun.lean ====
/-
  The kernel program's run with its result array named.

  Every weakly fair execution of the three segments terminates, nothing faulting, in a state whose every unscoped buffer
  holds what the last segment boundary's contents say. Read at the five arguments this gives that they end as launched;
  read at the result buffer it gives that the result array ends at the last boundary's contents of that buffer, which is
  the second region's output array after its last point. Both readings are of one statement about the final state.
-/
import proofs.«148538_j50689204027734_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result array ends at the last boundary's contents of its buffer and the five arguments end as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.RelMeanRegion.lean ====
/-
  The first grid of the kernel: the mean of the relative-position table over its middle axis.

  The grid has 16 points. Point t reads rows 32t … 32t + 31 of the table rel[512, 512, 256] and writes rows
  32t … 32t + 31 of a [512, 256] array: at row p, feature o of the block it stores
      (Σ_j block[p, j, o]) · 2⁻⁹ ,
  which is relMean[32t + p, o] of the layer's statement. The 16 row blocks fill the array (row r lies in block r / 32), so
  after the last point the array IS relMean of the table as the grid found it. Nothing is rearranged: the sum over j is
  the statement's own sum, term by term.
-/
import proofs.«148538_j50689204027734_1_alg».proof.Proof.Gen.KernelIdeal.Frame
import proofs.«148538_j50689204027734_1_alg».proof.Proof.LayerSpec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.RelMeanRegion

open Cert.KernelIdeal Cert.KernelIdeal.Gen Idealize.ShloMosaic Idealize.ShloMosaic.TcCoe Idealize.SL.Sem
open Idealize.ShloMosaic.Pipeline (Dat)

/-- The zero offsets of a whole-block access, as constant functions. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at row `p`, feature `o` of a block: the block's entries (p, j, o) added over j,
    times the word of 2⁻⁹. -/
theorem pay_apply (x0 : Vec Ideal S32x512x256 .f32) (p : Fin 32) (o : Fin 256) :
    k0_pay1 x0 (ValueIdx.ix2 p o)
      = (∑ j : Fin 512, x0 (ValueIdx.ix3 p j o)) * Ideal.ofBits .f32 0x3B000000#32 := by
  show multiReduction (F := Ideal) .add [1] S32x256 x0 0x00000000#32 reduces_S32x512x256_S32x256 (.inl rfl) rfl
      (ValueIdx.ix2 p o) * Ideal.ofBits .f32 0x3B000000#32 = _
  refine congrArg (· * Ideal.ofBits .f32 0x3B000000#32) ?_
  refine (Ideal.multiReduction_add_single _ _ _ _ _ _).trans ?_
  exact Finset.sum_congr rfl fun j _ => congrArg x0 (funext fun a => Fin.ext (by
    match a with
    | ⟨0, _⟩ => rfl
    | ⟨1, _⟩ => rfl
    | ⟨2, _⟩ => rfl))

/-- The printed index maps, decided over the grid: point `t` takes block row `t` of both arrays and block 0 on every
    other axis. -/
theorem index_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- A stored row is a row of the mean: when the block `x0` holds rows `32·tt …` of the table `rel`, its stored value at
    (p, o) is the mean of `rel` at any index `i` naming row `32·tt + p`, feature `o`. -/
theorem pay_eq_relMean (rel : (⟨3, ![512, 512, 256]⟩ : Shape).Idx → EReal) (x0 : Vec Ideal S32x512x256 .f32) (tt : Nat)
    (p : Fin 32) (o : Fin 256) (i : (⟨2, ![512, 256]⟩ : Shape).Idx)
    (h0 : (i 0).val = tt * 32 + p.val) (h1 : (i 1).val = o.val)
    (hx : ∀ (j : Fin 512) (k : (⟨3, ![512, 512, 256]⟩ : Shape).Idx), (k 0).val = tt * 32 + p.val → (k 1).val = j.val
      → (k 2).val = o.val → x0 (ValueIdx.ix3 p j o) = rel k) :
    k0_pay1 x0 (ValueIdx.ix2 p o) = Cert.GraphLayer.relMean rel i := by
  rw [pay_apply]
  show _ = (∑ j : Fin 512, rel (ValueIdx.ix3 (i 0) j (i 1))) * Ideal.ofBits .f32 0x3B000000#32
  exact congrArg (· * Ideal.ofBits .f32 0x3B000000#32)
    (Finset.sum_congr rfl fun j _ => hx j _ h0 rfl h1)

/-- The input window's block at point `t` is rows `32t … 32t + 31` of the table, all of its other two axes. -/
theorem iblk_apply (V : (c : Dev nD) → (b : Ref sig .tc) → Buf (Elt Ideal) ((c : Thread nD τ).loc b)) (c : Dev nD)
    (t : Fin cfg0.N) (p : Fin 32) (j : Fin 512) (o : Fin 256) (k : (⟨3, ![512, 512, 256]⟩ : Shape).Idx)
    (hk0 : (k 0).val = t.val * 32 + p.val) (hk1 : (k 1).val = j.val) (hk2 : (k 2).val = o.val) :
    (iblk0 V c 0 t : Vec Ideal S32x512x256 .f32) (ValueIdx.ix3 p j o)
      = (V c main_arg4 : (⟨3, ![512, 512, 256]⟩ : Shape).Idx → EReal) k := by
  obtain ⟨e0, e1, e2, -, -⟩ := index_facts t
  unfold iblk0
  rw [View.read_apply]
  show V c main_arg4 _ = V c main_arg4 _
  congr 1
  funext a
  apply Fin.ext
  match a with
  | ⟨0, _⟩ => show win0_0.index t (0 : Fin 3) * 32 + 1 * p.val = (k 0).val; rw [e0, hk0]; omega
  | ⟨1, _⟩ => show win0_0.index t (1 : Fin 3) * 512 + 1 * j.val = (k 1).val; rw [e1, hk1]; omega
  | ⟨2, _⟩ => show win0_0.index t (2 : Fin 3) * 256 + 1 * o.val = (k 2).val; rw [e2, hk2]; omega

/-- What point `t` writes back is block `t` of the relative-position mean of the table as the region finds it. -/
theorem flushed_eq (V : (c : Dev nD) → (b : Ref sig .tc) → Buf (Elt Ideal) ((c : Thread nD τ).loc b)) (c : Dev nD)
    (t : Fin cfg0.N) :
    (dat0 V c).flushed 1 t
      = ((cfg0.win 1).blk t).view.read (Elt Ideal) (Cert.GraphLayer.relMean (V c main_arg4)) := by
  show (cfg0.win 1).cut (grid0.coords t) ((dat0 V c).after 1 t) = _
  rw [after0_1]
  unfold out0_1
  rw [View.canon_unit_zero zero2]
  simp only [View.ld_unit_zero (S := S32x512x256) zero3]
  obtain ⟨-, -, -, e3, e4⟩ := index_facts t
  funext y
  obtain ⟨p, o, rfl⟩ : ∃ (p : Fin 32) (o : Fin 256), y = ValueIdx.ix2 p o := ⟨y 0, y 1, ValueIdx.eq_ix2 y⟩
  show k0_pay1 (iblk0 V c 0 t) (ValueIdx.ix2 p o)
    = Cert.GraphLayer.relMean (V c main_arg4) (((cfg0.win 1).blk t).view.emb (ValueIdx.ix2 p o))
  refine pay_eq_relMean (V c main_arg4) (iblk0 V c 0 t) t.val p o _ ?_ ?_
    (fun j k hk0 hk1 hk2 => iblk_apply V c t p j o k hk0 hk1 hk2)
  · show win0_1.index t (0 : Fin 2) * 32 + 1 * p.val = t.val * 32 + p.val
    rw [e3]; omega
  · show win0_1.index t (1 : Fin 2) * 256 + 1 * o.val = o.val
    rw [e4]; omega

/-- An index of the result array is in point `t`'s block iff each coordinate is in the block's range on its axis. -/
theorem mem_blk (t : Fin cfg0.N) (i : (⟨2, ![512, 256]⟩ : Shape).Idx) :
    i ∈ ((cfg0.win 1).blk t).view.set
      ↔ ∀ a : Fin 2, win0_1.index t a * S32x256.size a ≤ (i a).val
          ∧ (i a).val < win0_1.index t a * S32x256.size a + S32x256.size a := by
  show i ∈ ((View.whole main_v0).slice (win0_1.rect t)).set ↔ _
  rw [View.set_slice_whole, Rect.mem_set_unit]
  exact Iff.rfl

/-- Every index of the result array is in some point's block: row `r` is in the block of point `r / 32`. -/
theorem cover (i : (⟨2, ![512, 256]⟩ : Shape).Idx) :
    ∃ t : Fin cfg0.N, (cfg0.win 1).flush t = true ∧ i ∈ ((cfg0.win 1).blk t).view.set := by
  have hi0 : (i 0).val < 512 := (i 0).isLt
  have hi1 : (i 1).val < 256 := (i 1).isLt
  have hN : grid0.N = 16 := N_0
  let t : Fin cfg0.N := ⟨(i 0).val / 32, by show (i 0).val / 32 < grid0.N; omega⟩
  obtain ⟨-, -, -, e3, e4⟩ := index_facts t
  refine ⟨t, flush0_1 t, ?_⟩
  rw [mem_blk]
  intro a
  match a with
  | ⟨0, _⟩ =>
    show win0_1.index t (0 : Fin 2) * 32 ≤ (i 0).val ∧ (i 0).val < win0_1.index t (0 : Fin 2) * 32 + 32
    rw [e3]; show (i 0).val / 32 * 32 ≤ (i 0).val ∧ (i 0).val < (i 0).val / 32 * 32 + 32; omega
  | ⟨1, _⟩ =>
    show win0_1.index t (1 : Fin 2) * 256 ≤ (i 1).val ∧ (i 1).val < win0_1.index t (1 : Fin 2) * 256 + 256
    rw [e4]; omega

/-- After the region the result array holds the relative-position mean of the table the region found. -/
theorem relMean_array (V : (c : Dev nD) → (b : Ref sig .tc) → Buf (Elt Ideal) ((c : Thread nD τ).loc b)) (c : Dev nD) :
    (Cert.KernelIdeal.Gen.dat0 (F := Ideal) V c).arrAt 1 cfg0.N = Cert.GraphLayer.relMean (V c main_arg4) :=
  (dat0 V c).arrAt_eq_of_cover 1 (Cert.GraphLayer.relMean (V c main_arg4)) (fun t _ => flushed_eq V c t) cover

end Cert.KernelIdeal.RelMeanRegion

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LayerRegion.lean ====
/-
  The second region of the kernel computes the graph-convolution layer, one batch per grid point.

  Part 1 reads the body's stored value at an index (0, n, o) of its block: with the loaded feature block x, weight w,
  adjacency block a, relative-position mean rm and bias row bs it is
    node (Σ_j a[0,n,j]) (Σ_k x[0,n,k] · w[k,o]) rm[n,o] bs[0,o],
  each layout operation read at explicit coordinates, the lane sum as a sum over the lane, the matrix product as the
  sum over the contracted coordinate (the rounding to the narrow format is the identity on the extended reals).

  Part 2 goes from blocks to the array: at grid point t the blocks of the features, the adjacency and the result are
  batch t of their arrays, the weight, the mean table and the bias row are whole, so what point t writes back is batch t
  of the layer; the eight points cover the eight batches.
-/
import proofs.«148538_j50689204027734_1_alg».proof.Proof.Gen.KernelIdeal.Frame
import proofs.«148538_j50689204027734_1_alg».proof.Proof.LayerSpec
import proofs.«148538_j50689204027734_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.LayerRegion

open Idealize.ShloMosaic Idealize.ShloMosaic.ValueIdx Idealize.ShloMosaic.TcCoe Idealize.SL.Sem
open Idealize.ShloMosaic.Pipeline (Dat)
open Cert.KernelIdeal Cert.KernelIdeal.Gen

/-! ## Part 1: the stored value at an index -/

/-- The left operand's index of the product at output index i and contracted index q keeps the output's row … -/
theorem lhsIdx_row (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- … and takes the contracted coordinate as its column. -/
theorem lhsIdx_col (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The right operand's index takes the contracted coordinate as its row … -/
theorem rhsIdx_row (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- … and keeps the output's column. -/
theorem rhsIdx_col (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The matrix product into the zero accumulator, at (n, o): the sum over the contracted coordinate k of
    lhs[n, k] · rhs[k, o]. -/
theorem matmul_at (x : FVec Ideal S512x256 .bf16) (w : FVec Ideal S256x256 .bf16) (n : Fin 512) (o : Fin 256) :
    matmul dot_S512x256_S256x256_S512x256_1_0_0_1_n_n none x w (constant (F := Ideal) S512x256 .f32 0x00000000#32) (ix2 n o)
      = ∑ k : Fin 256, x (ix2 n k) * w (ix2 k o) := by
  refine (Ideal.matmul_constant_zero_apply dot_S512x256_S256x256_S512x256_1_0_0_1_n_n none x w (ix2 n o)).trans ?_
  rw [← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 n o) ((ValueIdx.contrEquiv1 dot_S512x256_S256x256_S512x256_1_0_0_1_n_n 256 rfl rfl).symm k) = ix2 n k := funext fun a => Fin.ext (by
    match a with
    | ⟨0, _⟩ => exact lhsIdx_row _ _
    | ⟨1, _⟩ => exact (lhsIdx_col _ _).trans hk)
  have er : dot_S512x256_S256x256_S512x256_1_0_0_1_n_n.rhsIdx (ix2 n o) ((ValueIdx.contrEquiv1 dot_S512x256_S256x256_S512x256_1_0_0_1_n_n 256 rfl rfl).symm k) = ix2 k o := funext fun a => Fin.ext (by
    match a with
    | ⟨0, _⟩ => exact (rhsIdx_row _ _).trans hk
    | ⟨1, _⟩ => exact rhsIdx_col _ _)
  rw [el, er]

/-- The lane sum of a [512, 512] array from the zero word, at n: the sum of row n. -/
theorem rowSum_at (a : FVec Ideal S512x512 .f32) (n : Fin 512) :
    multiReduction (F := Ideal) .add [1] S512 a 0x00000000#32 reduces_S512x512_S512 (.inl rfl) rfl (ix1 n)
      = ∑ j : Fin 512, a (ix2 n j) := by
  refine (Ideal.multiReduction_add_single a 0x00000000#32 reduces_S512x512_S512 (.inl rfl) rfl (ix1 n)).trans ?_
  refine Finset.sum_congr rfl fun j _ => ?_
  exact congrArg a (funext fun c => Fin.ext (by match c with | ⟨0, _⟩ => rfl | ⟨1, _⟩ => rfl))

/-- The hidden value at (n, o): the feature block with its unit axis dropped, times the weight. -/
theorem hidden_at (x : Vec Ideal S1x512x256 .f32) (w : Vec Ideal S256x256 .f32) (n : Fin 512) (o : Fin 256) :
    matmul dot_S512x256_S256x256_S512x256_1_0_0_1_n_n none
        (truncf .bf16 (shapeCast S512x256 x shapeCasts_S1x512x256_S512x256) bitsLt_bf16_f32 : FVec Ideal S512x256 .bf16)
        (truncf .bf16 w bitsLt_bf16_f32 : FVec Ideal S256x256 .bf16)
        (constant (F := Ideal) S512x256 .f32 0x00000000#32) (ix2 n o)
      = ∑ k : Fin 256, x (ix3 (0 : Fin 1) n k) * w (ix2 k o) := by
  refine (matmul_at _ _ n o).trans (Finset.sum_congr rfl fun k _ => ?_)
  show shapeCast S512x256 x shapeCasts_S1x512x256_S512x256 (ix2 n k) * w (ix2 k o) = _
  rw [shapeCast_1ab_ab_apply x shapeCasts_S1x512x256_S512x256 n k]

/-- The adjacency block's row sums stood up as a column, at (n, u): the sum of row n of the block. -/
theorem rowSumCol_at (a : Vec Ideal S1x512x512 .f32) (n : Fin 512) (u : Fin 1) :
    shapeCast S512x1
        (multiReduction (F := Ideal) .add [1] S512 (shapeCast S512x512 a shapeCasts_S1x512x512_S512x512) 0x00000000#32
          reduces_S512x512_S512 (.inl rfl) rfl)
        shapeCasts_S512_S512x1 (ix2 n u)
      = ∑ j : Fin 512, a (ix3 (0 : Fin 1) n j) := by
  refine (Cert.ColumnLayout.shapeCast_a_a1_apply _ shapeCasts_S512_S512x1 n u).trans ?_
  refine (rowSum_at _ n).trans (Finset.sum_congr rfl fun j _ => ?_)
  exact shapeCast_1ab_ab_apply a shapeCasts_S1x512x512_S512x512 n j

/-- THE STORED VALUE at (0, n, o): the layer's element from the block's row sum, hidden value, mean and bias. -/
theorem payload_at (x : Vec Ideal S1x512x256 .f32) (w : Vec Ideal S256x256 .f32) (a : Vec Ideal S1x512x512 .f32)
    (rm : Vec Ideal S512x256 .f32) (bs : Vec Ideal S1x256 .f32) (n : Fin 512) (o : Fin 256) :
    k1_pay1 x w a rm bs (ix3 (0 : Fin 1) n o)
      = Cert.GraphLayer.node (∑ j : Fin 512, a (ix3 (0 : Fin 1) n j)) (∑ k : Fin 256, x (ix3 (0 : Fin 1) n k) * w (ix2 k o))
          (rm (ix2 n o)) (bs (ix2 (0 : Fin 1) o)) := by
  unfold k1_pay1
  refine (shapeCast_ab_1ab_apply _ shapeCasts_S512x256_S1x512x256 (0 : Fin 1) n o).trans ?_
  simp only [maximumf_apply, addf_apply, divf_apply, mulf_apply, broadcast_apply,
    Cert.ColumnLayout.broadcastTo_a1_ab_apply, broadcastTo_1b_ab_apply, shapeCast_self, hidden_at]
  unfold Cert.GraphLayer.node
  rw [← rowSumCol_at a n (0 : Fin 1)]
  rfl

/-! ## Part 2: from blocks to the array -/

variable (V : (c : Dev nD) → (b : Ref sig .tc) → Buf (Elt Ideal) ((c : Thread nD τ).loc b))

theorem off3_zero : (![0, 0, 0] : Fin 3 → Nat) = fun _ => 0 := funext fun a => by fin_cases a <;> rfl
theorem off2_zero : (![0, 0] : Fin 2 → Nat) = fun _ => 0 := funext fun a => by fin_cases a <;> rfl

/-- The block indices over the grid: at point t the features, the adjacency and the result sit at block (t, 0, 0); the
    weight, the mean table and the bias row at block (0, 0). -/
theorem index_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0) :=
  (by decide +kernel : ∀ t : Fin grid1.N, _)

/-- A grid point as a batch number. -/
def batchOf (t : Fin cfg1.N) : Fin 8 := ⟨t.val, by have h := t.isLt; have e : cfg1.N = 8 := N_1; omega⟩

/-- The feature block at point t is batch t of the features. -/
theorem feat_block (c : Dev nD) (t : Fin cfg1.N) (n : Fin 512) (k : Fin 256) :
    (iblk1 V c 0 t : Vec Ideal S1x512x256 .f32) (ix3 (0 : Fin 1) n k)
      = (V c main_arg0 : S8x512x256.Idx → EReal) (ix3 (batchOf t) n k) := by
  obtain ⟨⟨e0, e1, e2⟩, -⟩ := index_facts t
  unfold iblk1
  rw [View.read_apply]
  show V c main_arg0 _ = V c main_arg0 _
  refine congrArg (V c main_arg0) (funext fun a => Fin.ext ?_)
  match a with
  | ⟨0, _⟩ => show win1_0.index t 0 * 1 + 1 * 0 = t.val; omega
  | ⟨1, _⟩ => show win1_0.index t 1 * 512 + 1 * n.val = n.val; omega
  | ⟨2, _⟩ => show win1_0.index t 2 * 256 + 1 * k.val = k.val; omega

/-- The adjacency block at point t is batch t of the adjacency. -/
theorem adj_block (c : Dev nD) (t : Fin cfg1.N) (n : Fin 512) (j : Fin 512) :
    (iblk1 V c 1 t : Vec Ideal S1x512x512 .f32) (ix3 (0 : Fin 1) n j)
      = (V c main_arg1 : S8x512x512.Idx → EReal) (ix3 (batchOf t) n j) := by
  obtain ⟨-, ⟨e0, e1, e2⟩, -⟩ := index_facts t
  unfold iblk1
  rw [View.read_apply]
  show V c main_arg1 _ = V c main_arg1 _
  refine congrArg (V c main_arg1) (funext fun a => Fin.ext ?_)
  match a with
  | ⟨0, _⟩ => show win1_1.index t 0 * 1 + 1 * 0 = t.val; omega
  | ⟨1, _⟩ => show win1_1.index t 1 * 512 + 1 * n.val = n.val; omega
  | ⟨2, _⟩ => show win1_1.index t 2 * 512 + 1 * j.val = j.val; omega

/-- The weight's block at every point is the whole weight. -/
theorem weight_block (c : Dev nD) (t : Fin cfg1.N) :
    (iblk1 V c 2 t : Vec Ideal S256x256 .f32) = (V c main_arg2 : S256x256.Idx → EReal) := by
  obtain ⟨-, -, ⟨e0, e1⟩, -⟩ := index_facts t
  funext y
  unfold iblk1
  rw [View.read_apply]
  show V c main_arg2 _ = V c main_arg2 y
  refine congrArg (V c main_arg2) (funext fun a => Fin.ext ?_)
  match a with
  | ⟨0, _⟩ => show win1_2.index t 0 * 256 + 1 * (y 0).val = (y 0).val; omega
  | ⟨1, _⟩ => show win1_2.index t 1 * 256 + 1 * (y 1).val = (y 1).val; omega

/-- The mean table's block at every point is the whole table. -/
theorem mean_block (c : Dev nD) (t : Fin cfg1.N) :
    (iblk1 V c 3 t : Vec Ideal S512x256 .f32) = (V c main_v0 : S512x256.Idx → EReal) := by
  obtain ⟨-, -, -, ⟨e0, e1⟩, -⟩ := index_facts t
  funext y
  unfold iblk1
  rw [View.read_apply]
  show V c main_v0 _ = V c main_v0 y
  refine congrArg (V c main_v0) (funext fun a => Fin.ext ?_)
  match a with
  | ⟨0, _⟩ => show win1_3.index t 0 * 512 + 1 * (y 0).val = (y 0).val; omega
  | ⟨1, _⟩ => show win1_3.index t 1 * 256 + 1 * (y 1).val = (y 1).val; omega

/-- The bias row's block at every point is the whole row. -/
theorem bias_block (c : Dev nD) (t : Fin cfg1.N) :
    (iblk1 V c 4 t : Vec Ideal S1x256 .f32) = (V c main_v1 : S1x256.Idx → EReal) := by
  obtain ⟨-, -, -, -, ⟨e0, e1⟩, -⟩ := index_facts t
  funext y
  unfold iblk1
  rw [View.read_apply]
  show V c main_v1 _ = V c main_v1 y
  refine congrArg (V c main_v1) (funext fun a => Fin.ext ?_)
  match a with
  | ⟨0, _⟩ => show win1_4.index t 0 * 1 + 1 * (y 0).val = (y 0).val; omega
  | ⟨1, _⟩ => show win1_4.index t 1 * 256 + 1 * (y 1).val = (y 1).val; omega

/-- One point's stored value, over variables: when the feature and adjacency blocks are batch b of two arrays X and A,
    the stored value at (0, n, o) is the layer of X, A, the weight, the mean table and the bias row at (b, n, o). -/
theorem point_eq (x : Vec Ideal S1x512x256 .f32) (a : Vec Ideal S1x512x512 .f32) (w : Vec Ideal S256x256 .f32)
    (rm : Vec Ideal S512x256 .f32) (bs : Vec Ideal S1x256 .f32)
    (X : S8x512x256.Idx → EReal) (A : S8x512x512.Idx → EReal) (b : Fin 8)
    (hx : ∀ (n : Fin 512) (k : Fin 256), x (ix3 (0 : Fin 1) n k) = X (ix3 b n k))
    (ha : ∀ (n : Fin 512) (j : Fin 512), a (ix3 (0 : Fin 1) n j) = A (ix3 b n j))
    (n : Fin 512) (o : Fin 256) :
    k1_pay1 x w a rm bs (ix3 (0 : Fin 1) n o) = Cert.GraphLayer.layerAt X A w rm bs b n o := by
  rw [payload_at]
  unfold Cert.GraphLayer.layerAt Cert.GraphLayer.rowSum Cert.GraphLayer.hidden
  rw [Finset.sum_congr rfl fun j _ => ha n j, Finset.sum_congr rfl fun k _ => congrArg (· * w (ix2 k o)) (hx n k)]

/-- WHAT POINT t WRITES BACK is block t of the layer of the arrays as the region finds them. -/
theorem flushed_eq (c : Dev nD) (t : Fin cfg1.N) :
    (dat1 (F := Ideal) V c).flushed 5 t = ((cfg1.win 5).blk t).view.read (Elt Ideal)
      (Cert.GraphLayer.layer (V c main_arg0) (V c main_arg1) (V c main_arg2) (V c main_v0) (V c main_v1)) := by
  show (cfg1.win 5).cut (grid1.coords t) ((dat1 V c).after 5 t) = _
  rw [after1_5]
  unfold out1_5
  rw [View.canon_unit_zero off3_zero]
  simp only [View.ld_unit_zero (S := S1x512x256) off3_zero, View.ld_unit_zero (S := S1x512x512) off3_zero,
    View.ld_unit_zero (S := S256x256) off2_zero, View.ld_unit_zero (S := S512x256) off2_zero,
    View.ld_unit_zero (S := S1x256) off2_zero]
  rw [weight_block V c t, mean_block V c t, bias_block V c t]
  funext y
  obtain ⟨u, n, o, rfl⟩ : ∃ (u : Fin 1) (n : Fin 512) (o : Fin 256), y = ix3 u n o := ⟨y 0, y 1, y 2, eq_ix3 y⟩
  obtain rfl : u = 0 := Subsingleton.elim _ _
  refine (point_eq (iblk1 V c 0 t) (iblk1 V c 1 t) (V c main_arg2) (V c main_v0) (V c main_v1) (V c main_arg0) (V c main_arg1)
    (batchOf t) (feat_block V c t) (adj_block V c t) n o).trans ?_
  obtain ⟨-, -, -, -, -, ⟨e0, e1, e2⟩⟩ := index_facts t
  have hi : ((cfg1.win 5).blk t).view.emb (ix3 (0 : Fin 1) n o) = (ix3 (batchOf t) n o : S8x512x256.Idx) :=
    funext fun a => Fin.ext (by
      match a with
      | ⟨0, _⟩ => show win1_5.index t 0 * 1 + 1 * 0 = t.val; omega
      | ⟨1, _⟩ => show win1_5.index t 1 * 512 + 1 * n.val = n.val; omega
      | ⟨2, _⟩ => show win1_5.index t 2 * 256 + 1 * o.val = o.val; omega)
  exact (congrArg (Cert.GraphLayer.layer (V c main_arg0) (V c main_arg1) (V c main_arg2) (V c main_v0) (V c main_v1)) hi).symm

/-- An index of the result array is in point t's block iff each coordinate is in the block's range on its axis. -/
theorem mem_blk (t : Fin cfg1.N) (i : S8x512x256.Idx) :
    i ∈ ((cfg1.win 5).blk t).view.set ↔ ∀ a : Fin 3, win1_5.index t a * S1x512x256.size a ≤ (i a).val
      ∧ (i a).val < win1_5.index t a * S1x512x256.size a + S1x512x256.size a := by
  show i ∈ ((View.whole main_v2).slice (win1_5.rect t)).set ↔ _
  rw [View.set_slice_whole, Rect.mem_set_unit]
  exact Iff.rfl

/-- Batch b of the result array is point b's block: the eight points cover the array. -/
theorem cover (i : S8x512x256.Idx) :
    ∃ t : Fin cfg1.N, (cfg1.win 5).flush t = true ∧ i ∈ ((cfg1.win 5).blk t).view.set := by
  have h0 : (i 0).val < 8 := (i 0).isLt
  have h1 : (i 1).val < 512 := (i 1).isLt
  have h2 : (i 2).val < 256 := (i 2).isLt
  have hN : cfg1.N = 8 := N_1
  obtain ⟨t, ht⟩ : ∃ t : Fin cfg1.N, t.val = (i 0).val := ⟨⟨(i 0).val, by omega⟩, rfl⟩
  refine ⟨t, flush1_5 t, ?_⟩
  rw [mem_blk]
  obtain ⟨-, -, -, -, -, ⟨e0, e1, e2⟩⟩ := index_facts t
  intro a
  match a with
  | ⟨0, _⟩ => show win1_5.index t 0 * 1 ≤ (i 0).val ∧ (i 0).val < win1_5.index t 0 * 1 + 1; omega
  | ⟨1, _⟩ => show win1_5.index t 1 * 512 ≤ (i 1).val ∧ (i 1).val < win1_5.index t 1 * 512 + 512; omega
  | ⟨2, _⟩ => show win1_5.index t 2 * 256 ≤ (i 2).val ∧ (i 2).val < win1_5.index t 2 * 256 + 256; omega

/-- THE RESULT ARRAY after the region: the layer of the five arrays as the region finds them. -/
theorem layer_array (c : Dev nD) :
    (Cert.KernelIdeal.Gen.dat1 (F := Ideal) V c).arrAt 5 cfg1.N
      = Cert.GraphLayer.layer (V c main_arg0) (V c main_arg1) (V c main_arg2) (V c main_v0) (V c main_v1) :=
  (dat1 (F := Ideal) V c).arrAt_eq_of_cover 5
    (Cert.GraphLayer.layer (V c main_arg0) (V c main_arg1) (V c main_arg2) (V c main_v0) (V c main_v1))
    (fun t _ => flushed_eq V c t) cover

end Cert.KernelIdeal.LayerRegion

end
-- ==== Proof.KernelLayer.lean ====
/-
  The kernel program's result as the layer of its five arguments.

  The second region's output array is the layer of what that region finds in its five input arrays (one batch per grid
  point; each point's block is a function of that batch's rows only, and the eight blocks tile the array). What it finds
  there is: the features, the adjacency and the weights as launched; the first region's output array, which is the mean
  over j of the launched relative-position table (thirty-two rows per grid point, sixteen blocks tiling the array); and
  the launched bias vector reshaped to one row, whose entry in column o is the vector's entry o.
-/
import proofs.«148538_j50689204027734_1_alg».proof.Proof.Gen.KernelIdeal.Frame
import proofs.«148538_j50689204027734_1_alg».proof.Proof.LayerSpec
import proofs.«148538_j50689204027734_1_alg».proof.Proof.KernelFold
import proofs.«148538_j50689204027734_1_alg».proof.Proof.KernelRun
import proofs.«148538_j50689204027734_1_alg».proof.Proof.RelMeanRegion
import proofs.«148538_j50689204027734_1_alg».proof.Proof.LayerRegion
import Idealize.ShloMosaic.Lib.Pipeline.Value
import Idealize.ShloMosaic.Lib.ValueIdx
import Idealize.ShloMosaic.Lib.ValueLayout

noncomputable section

namespace Cert.KernelIdeal.Layer

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The bias vector reshaped to one row, read at an entry, is the vector's entry of that column. -/
theorem reshape_bias (v : S256.Idx → EReal) :
    (fun i => shapeCast S1x256 v shapeCasts_S256_S1x256 i) = Cert.GraphLayer.biasRow v := by
  funext i
  obtain ⟨u, o, rfl⟩ : ∃ (u : Fin 1) (o : Fin 256), i = ix2 u o := ⟨i 0, i 1, eq_ix2 i⟩
  exact shapeCast_a_1a_apply v shapeCasts_S256_S1x256 u o

/-- The program's result array at the end, as the layer of the five launched arguments: the second region's output array
    is the layer of what that region finds, and what it finds is the launched features, adjacency and weights, the first
    region's mean of the launched relative-position table, and the launched bias as a row. -/
theorem result_eq (c : Dev nD) :
    W3 m ρ c (Proc.devRef .tc main_v2)
      = Cert.GraphLayer.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.KernelIdeal.Fold.result_array, Cert.KernelIdeal.LayerRegion.layer_array (V2 m ρ) c,
    Cert.KernelIdeal.Fold.entry_features, Cert.KernelIdeal.Fold.entry_adjacency, Cert.KernelIdeal.Fold.entry_weights,
    Cert.KernelIdeal.Fold.entry_relMean, Cert.KernelIdeal.RelMeanRegion.relMean_array (V0 m ρ) c,
    Cert.KernelIdeal.Fold.entry_relPos, Cert.KernelIdeal.Fold.entry_biasRow, reshape_bias]
  rfl

/-- The kernel program's run: the result array ends at the layer of the launched arguments, which end as launched. -/
theorem run : θ_run defs (onTc (τ := τ) (main (F := Ideal))) ⟨m, fun _ => 0, ρ⟩ (fun r => ∀ c : Dev nD,
      r.2.mem ((c.tc : Thread nD τ).loc main_v2)
        = Cert.GraphLayer.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_named m ρ)

end Cert.KernelIdeal.Layer

end
-- ==== Proof.lean ====
/-
  A dense graph-convolution layer computed two ways, equal on the extended reals.

  The kernel program computes the mean over j of the relative-position table in one region (sum, then times the word of
  2⁻⁹), reshapes the bias to a row on the host, and computes in a second region, one batch per grid point,
  max (((rowSum · 2⁻⁹) · (x · w) + mean) / (rowSum + 1) + bias) 0, the product x · w taken after both operands' format is
  narrowed — which changes nothing on the extended reals. The reference computes the same expression with a division by
  512 in both places. The specification (LayerSpec) states the layer once; each program is shown to end with it in its
  result array (KernelLayer for the kernel program, over its frame's run; ReferenceLayer for the reference, over its
  run read one operation at a time); the two frames of the kernel program and the reference's are their runs.
  The one law used is that dividing by the real 512 is multiplying by 1/512 on every extended real, so no argument needs
  to be finite and the precondition is never opened.
-/
import proofs.«148538_j50689204027734_1_alg».proof.Defs
import proofs.«148538_j50689204027734_1_alg».proof.Proof.Gen.Kernel
import proofs.«148538_j50689204027734_1_alg».proof.Proof.Gen.Kernel.Skeleton
import proofs.«148538_j50689204027734_1_alg».proof.Proof.Gen.Kernel.Launch
import proofs.«148538_j50689204027734_1_alg».proof.Proof.Gen.Kernel.Points
import proofs.«148538_j50689204027734_1_alg».proof.Proof.Gen.Kernel.Frame
import proofs.«148538_j50689204027734_1_alg».proof.Proof.Gen.KernelIdeal
import proofs.«148538_j50689204027734_1_alg».proof.Proof.Gen.KernelIdeal.Skeleton
import proofs.«148538_j50689204027734_1_alg».proof.Proof.Gen.KernelIdeal.Launch
import proofs.«148538_j50689204027734_1_alg».proof.Proof.Gen.KernelIdeal.Points
import proofs.«148538_j50689204027734_1_alg».proof.Proof.Gen.KernelIdeal.Frame
import proofs.«148538_j50689204027734_1_alg».proof.Proof.Gen.ReferenceIdeal
import proofs.«148538_j50689204027734_1_alg».proof.Proof.Gen.ReferenceIdeal.Read
import proofs.«148538_j50689204027734_1_alg».proof.Proof.Gen.Pre_finite_inputs
import proofs.«148538_j50689204027734_1_alg».proof.Proof.LayerSpec
import proofs.«148538_j50689204027734_1_alg».proof.Proof.ReferenceLayer
import proofs.«148538_j50689204027734_1_alg».proof.Proof.KernelLayer
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs, run from memories that agree on the five arguments, end with the layer of
    those arguments in their result arrays: the kernel's two regions and its reshape compose to it, and the reference's
    operations compose to it, the reference's two divisions by 512 meeting the kernel's two products with 2⁻⁹. -/
theorem algebraic : Cert.algebraic_KernelIdeal_ReferenceIdeal := by
  intro m ρ m' ρ' _ hagree
  refine ⟨fun c => Cert.GraphLayer.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefLayer.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
